-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x768 : Shape := ⟨2, ![200000, 768]⟩
abbrev S768x256 : Shape := ⟨2, ![768, 256]⟩
abbrev S256 : Shape := ⟨1, ![256]⟩
abbrev S256x256 : Shape := ⟨2, ![256, 256]⟩
abbrev S2x400000 : Shape := ⟨2, ![2, 400000]⟩
abbrev S200000 : Shape := ⟨1, ![200000]⟩
abbrev S_ : Shape := ⟨0, ![]⟩

class Facts : Prop where
  bcast_S_S200000x768 : S_.BroadcastsInDim S200000x768 (![] : Fin 0 → Fin S200000x768.rank)
  reducesTo_S200000x768_S_d0_1 : S200000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S200000x768 .f32) (main_arg1 : FVec F S768x256 .f32) (main_arg2 : FVec F S256 .f32) (main_arg3 : FVec F S256x256 .f32) (main_arg4 : FVec F S256 .f32) (main_arg5 : IVec S2x400000 32) (main_arg6 : IVec S200000 32) : IVec S_ 1 :=
  let main_v0 : FVec F S200000x768 .f32 := Host.absf main_arg0
  let main_cst : FVec F S_ .f32 := constant S_ .f32 0x7F800000#32
  let main_v1 : FVec F S200000x768 .f32 := broadcastInDim S200000x768 ![] bcast_S_S200000x768 main_cst
  let main_v2 : IVec S200000x768 1 := cmpf .olt main_v0 main_v1
  let main_c : IVec S_ 1 := constantI S_ 1 1#1
  let main_v3 : IVec S_ 1 := (fun x v => Host.reduce IntOp.andi x v reducesTo_S200000x768_S_d0_1 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S200000x768 : Shape := ⟨2, ![200000, 768]⟩
abbrev S768x256 : Shape := ⟨2, ![768, 256]⟩
abbrev S256 : Shape := ⟨1, ![256]⟩
abbrev S256x256 : Shape := ⟨2, ![256, 256]⟩
abbrev S2x400000 : Shape := ⟨2, ![2, 400000]⟩
abbrev S200000 : Shape := ⟨1, ![200000]⟩
abbrev S1x400000 : Shape := ⟨2, ![1, 400000]⟩
abbrev S400000 : Shape := ⟨1, ![400000]⟩
abbrev S600000 : Shape := ⟨1, ![600000]⟩
abbrev S_ : Shape := ⟨0, ![]⟩
abbrev S600000x1 : Shape := ⟨2, ![600000, 1]⟩
abbrev S200000x256 : Shape := ⟨2, ![200000, 256]⟩
abbrev S4000x768 : Shape := ⟨2, ![4000, 768]⟩
abbrev S4000x256 : Shape := ⟨2, ![4000, 256]⟩
abbrev S600000x256 : Shape := ⟨2, ![600000, 256]⟩
abbrev S1x256 : Shape := ⟨2, ![1, 256]⟩
abbrev S8000x256 : Shape := ⟨2, ![8000, 256]⟩
abbrev S200000x1 : Shape := ⟨2, ![200000, 1]⟩
abbrev S8000 : Shape := ⟨1, ![8000]⟩
abbrev S8000x1 : Shape := ⟨2, ![8000, 1]⟩

abbrev nBuf : Space → Nat
  | .hbm => 106
  | .vmem => 10
  | .smem => 0
  | _ => 0

abbrev bufTy : (tb : Table) → Fin (tcTables nBuf tb) → BufTy
  | .hbm, ⟨0, _⟩ => ⟨S200000x768, .f32⟩
  | .hbm, ⟨1, _⟩ => ⟨S768x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x400000, .i32⟩
  | .hbm, ⟨6, _⟩ => ⟨S200000, .i32⟩
  | .hbm, ⟨7, _⟩ => ⟨S200000, .i32⟩
  | .hbm, ⟨8, _⟩ => ⟨S1x400000, .i32⟩
  | .hbm, ⟨9, _⟩ => ⟨S400000, .i32⟩
  | .hbm, ⟨10, _⟩ => ⟨S600000, .i32⟩
  | .hbm, ⟨11, _⟩ => ⟨S1x400000, .i32⟩
  | .hbm, ⟨12, _⟩ => ⟨S400000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S200000, .f32⟩
  | .hbm, ⟨18, _⟩ => ⟨S600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000, .f32⟩
  | .hbm, ⟨46, _⟩ => ⟨S600000, .f32⟩
  | .hbm, ⟨47, _⟩ => ⟨S200000x256, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x256, .f32⟩
  | .hbm, ⟨57, _⟩ => ⟨S600000x1, .f32⟩
  | .hbm, ⟨58, _⟩ => ⟨S600000x256, .f32⟩
  | .hbm, ⟨59, _⟩ => ⟨S600000x256, .f32⟩
  | .hbm, ⟨60, _⟩ => ⟨S_, .f32⟩
  | .hbm, ⟨61, _⟩ => ⟨S200000x256, .f32⟩
  | .hbm, ⟨62, _⟩ => ⟨S600000x1, .i32⟩
  | .hbm, ⟨63, _⟩ => ⟨S200000x256, .f32⟩
  | .hbm, ⟨64, _⟩ => ⟨S1x256, .f32⟩
  | .hbm, ⟨65, _⟩ => ⟨S200000x256, .f32⟩
  | .hbm, ⟨66, _⟩ => ⟨S200000x256, .f32⟩
  | .hbm, ⟨67, _⟩ => ⟨S_, .f32⟩
  | .hbm, ⟨68, _⟩ => ⟨S200000x256, .f32⟩
  | .hbm, ⟨69, _⟩ => ⟨S200000x256, .f32⟩
  | .hbm, ⟨70, _⟩ => ⟨S200000x256, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x256, .f32⟩
  | .hbm, ⟨80, _⟩ => ⟨S600000x1, .f32⟩
  | .hbm, ⟨81, _⟩ => ⟨S600000x256, .f32⟩
  | .hbm, ⟨82, _⟩ => ⟨S600000x256, .f32⟩
  | .hbm, ⟨83, _⟩ => ⟨S_, .f32⟩
  | .hbm, ⟨84, _⟩ => ⟨S200000x256, .f32⟩
  | .hbm, ⟨85, _⟩ => ⟨S600000x1, .i32⟩
  | .hbm, ⟨86, _⟩ => ⟨S200000x256, .f32⟩
  | .hbm, ⟨87, _⟩ => ⟨S1x256, .f32⟩
  | .hbm, ⟨88, _⟩ => ⟨S200000x256, .f32⟩
  | .hbm, ⟨89, _⟩ => ⟨S200000x256, .f32⟩
  | .hbm, ⟨90, _⟩ => ⟨S_, .f32⟩
  | .hbm, ⟨91, _⟩ => ⟨S8000x256, .f32⟩
  | .hbm, ⟨92, _⟩ => ⟨S200000x1, .i32⟩
  | .hbm, ⟨93, _⟩ => ⟨S8000x256, .f32⟩
  | .hbm, ⟨94, _⟩ => ⟨S_, .f32⟩
  | .hbm, ⟨95, _⟩ => ⟨S200000, .f32⟩
  | .hbm, ⟨96, _⟩ => ⟨S_, .f32⟩
  | .hbm, ⟨97, _⟩ => ⟨S8000, .f32⟩
  | .hbm, ⟨98, _⟩ => ⟨S200000x1, .i32⟩
  | .hbm, ⟨99, _⟩ => ⟨S8000, .f32⟩
  | .hbm, ⟨100, _⟩ => ⟨S_, .f32⟩
  | .hbm, ⟨101, _⟩ => ⟨S8000, .f32⟩
  | .hbm, ⟨102, _⟩ => ⟨S8000, .f32⟩
  | .hbm, ⟨103, _⟩ => ⟨S8000x1, .f32⟩
  | .hbm, ⟨104, _⟩ => ⟨S8000x256, .f32⟩
  | .hbm, ⟨105, _⟩ => ⟨S8000x256, .f32⟩
  | .local _ .vmem, ⟨0, _⟩ => ⟨S4000x768, .f32⟩
  | .local _ .vmem, ⟨1, _⟩ => ⟨S4000x768, .f32⟩
  | .local _ .vmem, ⟨2, _⟩ => ⟨S768x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S256x256, .f32⟩
  | .local _ .vmem, ⟨8, _⟩ => ⟨S4000x256, .f32⟩
  | .local _ .vmem, ⟨9, _⟩ => ⟨S4000x256, .f32⟩
  | _, _ => ⟨S200000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x400000_S1x400000_0_0 : S2x400000.Slices ![0, 0] S1x400000
  shapeCasts_S1x400000_S400000 : S1x400000.ShapeCasts S400000
  concatenates_S400000_S200000_S600000_d0 : Shape.Concatenates [S400000, S200000] S600000 0
  slices_S2x400000_S1x400000_1_0 : S2x400000.Slices ![1, 0] S1x400000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  inb_S4000x768_S4000x768_0_0 : ∀ a, (![0, 0] : Fin 2 → Nat) a + S4000x768.size a ≤ S4000x768.size a
  h_S4000x768 : 0 < S4000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S4000x256_S4000x256_0_0 : ∀ a, (![0, 0] : Fin 2 → Nat) a + S4000x256.size a ≤ S4000x256.size a
  h_S4000x256 : 0 < S4000x256.numel
  bcast_S600000x1_S600000x256_0_1 : S600000x1.BroadcastsInDim S600000x256 (![0, 1] : Fin 2 → Fin S600000x256.rank)
  bcast_S_S200000x256 : S_.BroadcastsInDim S200000x256 (![] : Fin 0 → Fin S200000x256.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  bcast_S_S8000x256 : S_.BroadcastsInDim S8000x256 (![] : Fin 0 → Fin S8000x256.rank)
  bcast_S200000_S200000x1_0 : S200000.BroadcastsInDim S200000x1 (![0] : Fin 1 → Fin S200000x1.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x256_0_1 : S8000x1.BroadcastsInDim S8000x256 (![0, 1] : Fin 2 → Fin S8000x256.rank)
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  dot_S4000x768_S768x256_S4000x256_1_0_0_1_n_n_wf : DotDims.WF S4000x768 S768x256 S4000x256 [1] [0] [0] [1] [] []
  gather_S200000x256_S600000x1_S600000x256_1_0_n_n_0_1_1256_wf : GatherDims.WF S200000x256 S600000x1 S600000x256 [1] [0] [] [0] [] 1 ![1, 256]
  scatter_S200000x256_S600000x1_S600000x256_1_0_0_1_wf : ScatterDims.WF S200000x256 S600000x1 S600000x256 [1] [0] [0] 1
  dot_S4000x256_S256x256_S4000x256_1_0_0_1_n_n_wf : DotDims.WF S4000x256 S256x256 S4000x256 [1] [0] [0] [1] [] []
  scatter_S8000x256_S200000x1_S200000x256_1_0_0_1_wf : ScatterDims.WF S8000x256 S200000x1 S200000x256 [1] [0] [0] 1
  scatter_S8000_S200000x1_S200000_n_0_0_1_wf : ScatterDims.WF S8000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x768.size a ≤ S200000x768.size a
  hwx0_0 : ∀ i : grid0.Coords, EltTy.bits .f32 = 32 ∨ (Rect.block (s := S200000x768) S4000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S200000x256.size a
  hwx0_2 : ∀ i : grid0.Coords, EltTy.bits .f32 = 32 ∨ (Rect.block (s := S200000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S200000x256.size a
  hwx1_0 : ∀ i : grid1.Coords, EltTy.bits .f32 = 32 ∨ (Rect.block (s := S200000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S200000x256.size a
  hwx1_2 : ∀ i : grid1.Coords, EltTy.bits .f32 = 32 ∨ (Rect.block (s := S200000x256) S4000x256.size (cc1_transform_2 i) (hinb1_2 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def dot_S4000x768_S768x256_S4000x256_1_0_0_1_n_n : DotDims S4000x768 S768x256 S4000x256 where
  lhsContracting := [1]
  rhsContracting := [0]
  lhsNonContracting := [0]
  rhsNonContracting := [1]
  lhsBatch := []
  rhsBatch := []
  wf := dot_S4000x768_S768x256_S4000x256_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S8000x256_S200000x1_S200000x256_1_0_0_1 : ScatterDims S8000x256 S200000x1 S200000x256 where
  updateWindowDims := [1]
  insertedWindowDims := [0]
  scatterDimsToOperandDims := [0]
  indexVectorDim := 1
  wf := scatter_S8000x256_S200000x1_S200000x256_1_0_0_1_wf
def scatter_S8000_S200000x1_S200000_n_0_0_1 : ScatterDims S8000 S200000x1 S200000 where
  updateWindowDims := []
  insertedWindowDims := [0]
  scatterDimsToOperandDims := [0]
  indexVectorDim := 1
  wf := scatter_S8000_S200000x1_S200000_n_0_0_1_wf

abbrev win0_0 : Pipeline.Window sig grid0 :=
  Pipeline.Window.ofSpec (Memref.whole main_arg0) S4000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x768 : Shape := ⟨2, ![200000, 768]⟩
abbrev S768x256 : Shape := ⟨2, ![768, 256]⟩
abbrev S256 : Shape := ⟨1, ![256]⟩
abbrev S256x256 : Shape := ⟨2, ![256, 256]⟩
abbrev S2x400000 : Shape := ⟨2, ![2, 400000]⟩
abbrev S200000 : Shape := ⟨1, ![200000]⟩
abbrev S1x400000 : Shape := ⟨2, ![1, 400000]⟩
abbrev S400000 : Shape := ⟨1, ![400000]⟩
abbrev S600000 : Shape := ⟨1, ![600000]⟩
abbrev S_ : Shape := ⟨0, ![]⟩
abbrev S600000x1 : Shape := ⟨2, ![600000, 1]⟩
abbrev S200000x256 : Shape := ⟨2, ![200000, 256]⟩
abbrev S600000x256 : Shape := ⟨2, ![600000, 256]⟩
abbrev S1x256 : Shape := ⟨2, ![1, 256]⟩
abbrev S8000x256 : Shape := ⟨2, ![8000, 256]⟩
abbrev S200000x1 : Shape := ⟨2, ![200000, 1]⟩
abbrev S8000 : Shape := ⟨1, ![8000]⟩
abbrev S8000x1 : Shape := ⟨2, ![8000, 1]⟩

abbrev nBuf : Space → Nat
  | .hbm => 106
  | .vmem => 0
  | .smem => 0
  | _ => 0

abbrev bufTy : (tb : Table) → Fin (tcTables nBuf tb) → BufTy
  | .hbm, ⟨0, _⟩ => ⟨S200000x768, .f32⟩
  | .hbm, ⟨1, _⟩ => ⟨S768x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x400000, .i32⟩
  | .hbm, ⟨6, _⟩ => ⟨S200000, .i32⟩
  | .hbm, ⟨7, _⟩ => ⟨S200000, .i32⟩
  | .hbm, ⟨8, _⟩ => ⟨S1x400000, .i32⟩
  | .hbm, ⟨9, _⟩ => ⟨S400000, .i32⟩
  | .hbm, ⟨10, _⟩ => ⟨S600000, .i32⟩
  | .hbm, ⟨11, _⟩ => ⟨S1x400000, .i32⟩
  | .hbm, ⟨12, _⟩ => ⟨S400000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S200000, .f32⟩
  | .hbm, ⟨18, _⟩ => ⟨S600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000, .f32⟩
  | .hbm, ⟨46, _⟩ => ⟨S600000, .f32⟩
  | .hbm, ⟨47, _⟩ => ⟨S200000x256, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x256, .f32⟩
  | .hbm, ⟨57, _⟩ => ⟨S600000x1, .f32⟩
  | .hbm, ⟨58, _⟩ => ⟨S600000x256, .f32⟩
  | .hbm, ⟨59, _⟩ => ⟨S600000x256, .f32⟩
  | .hbm, ⟨60, _⟩ => ⟨S_, .f32⟩
  | .hbm, ⟨61, _⟩ => ⟨S200000x256, .f32⟩
  | .hbm, ⟨62, _⟩ => ⟨S600000x1, .i32⟩
  | .hbm, ⟨63, _⟩ => ⟨S200000x256, .f32⟩
  | .hbm, ⟨64, _⟩ => ⟨S1x256, .f32⟩
  | .hbm, ⟨65, _⟩ => ⟨S200000x256, .f32⟩
  | .hbm, ⟨66, _⟩ => ⟨S200000x256, .f32⟩
  | .hbm, ⟨67, _⟩ => ⟨S_, .f32⟩
  | .hbm, ⟨68, _⟩ => ⟨S200000x256, .f32⟩
  | .hbm, ⟨69, _⟩ => ⟨S200000x256, .f32⟩
  | .hbm, ⟨70, _⟩ => ⟨S200000x256, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x256, .f32⟩
  | .hbm, ⟨80, _⟩ => ⟨S600000x1, .f32⟩
  | .hbm, ⟨81, _⟩ => ⟨S600000x256, .f32⟩
  | .hbm, ⟨82, _⟩ => ⟨S600000x256, .f32⟩
  | .hbm, ⟨83, _⟩ => ⟨S_, .f32⟩
  | .hbm, ⟨84, _⟩ => ⟨S200000x256, .f32⟩
  | .hbm, ⟨85, _⟩ => ⟨S600000x1, .i32⟩
  | .hbm, ⟨86, _⟩ => ⟨S200000x256, .f32⟩
  | .hbm, ⟨87, _⟩ => ⟨S1x256, .f32⟩
  | .hbm, ⟨88, _⟩ => ⟨S200000x256, .f32⟩
  | .hbm, ⟨89, _⟩ => ⟨S200000x256, .f32⟩
  | .hbm, ⟨90, _⟩ => ⟨S_, .f32⟩
  | .hbm, ⟨91, _⟩ => ⟨S8000x256, .f32⟩
  | .hbm, ⟨92, _⟩ => ⟨S200000x1, .i32⟩
  | .hbm, ⟨93, _⟩ => ⟨S8000x256, .f32⟩
  | .hbm, ⟨94, _⟩ => ⟨S_, .f32⟩
  | .hbm, ⟨95, _⟩ => ⟨S200000, .f32⟩
  | .hbm, ⟨96, _⟩ => ⟨S_, .f32⟩
  | .hbm, ⟨97, _⟩ => ⟨S8000, .f32⟩
  | .hbm, ⟨98, _⟩ => ⟨S200000x1, .i32⟩
  | .hbm, ⟨99, _⟩ => ⟨S8000, .f32⟩
  | .hbm, ⟨100, _⟩ => ⟨S_, .f32⟩
  | .hbm, ⟨101, _⟩ => ⟨S8000, .f32⟩
  | .hbm, ⟨102, _⟩ => ⟨S8000, .f32⟩
  | .hbm, ⟨103, _⟩ => ⟨S8000x1, .f32⟩
  | .hbm, ⟨104, _⟩ => ⟨S8000x256, .f32⟩
  | .hbm, ⟨105, _⟩ => ⟨S8000x256, .f32⟩
  | _, _ => ⟨S200000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S200000_S600000_d0 : Shape.Concatenates [S400000, S200000] S600000 0
  slices_S2x400000_S1x400000_1_0 : S2x400000.Slices ![1, 0] S1x400000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S200000x256 : S_.BroadcastsInDim S200000x256 (![] : Fin 0 → Fin S200000x256.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S8000x256 : S_.BroadcastsInDim S8000x256 (![] : Fin 0 → Fin S8000x256.rank)
  bcast_S200000_S200000x1_0 : S200000.BroadcastsInDim S200000x1 (![0] : Fin 1 → Fin S200000x1.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x256_0_1 : S8000x1.BroadcastsInDim S8000x256 (![0, 1] : Fin 2 → Fin S8000x256.rank)
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  dot_S200000x768_S768x256_S200000x256_1_0_0_1_n_n_wf : DotDims.WF S200000x768 S768x256 S200000x256 [1] [0] [0] [1] [] []
  gather_S200000x256_S600000x1_S600000x256_1_0_n_n_0_1_1256_wf : GatherDims.WF S200000x256 S600000x1 S600000x256 [1] [0] [] [0] [] 1 ![1, 256]
  scatter_S200000x256_S600000x1_S600000x256_1_0_0_1_wf : ScatterDims.WF S200000x256 S600000x1 S600000x256 [1] [0] [0] 1
  dot_S200000x256_S256x256_S200000x256_1_0_0_1_n_n_wf : DotDims.WF S200000x256 S256x256 S200000x256 [1] [0] [0] [1] [] []
  scatter_S8000x256_S200000x1_S200000x256_1_0_0_1_wf : ScatterDims.WF S8000x256 S200000x1 S200000x256 [1] [0] [0] 1
  scatter_S8000_S200000x1_S200000_n_0_0_1_wf : ScatterDims.WF S8000 S200000x1 S200000 [] [0] [0] 1

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def dot_S200000x768_S768x256_S200000x256_1_0_0_1_n_n : DotDims S200000x768 S768x256 S200000x256 where
  lhsContracting := [1]
  rhsContracting := [0]
  lhsNonContracting := [0]
  rhsNonContracting := [1]
  lhsBatch := []
  rhsBatch := []
  wf := dot_S200000x768_S768x256_S200000x256_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S8000x256_S200000x1_S200000x256_1_0_0_1 : ScatterDims S8000x256 S200000x1 S200000x256 where
  updateWindowDims := [1]
  insertedWindowDims := [0]
  scatterDimsToOperandDims := [0]
  indexVectorDim := 1
  wf := scatter_S8000x256_S200000x1_S200000x256_1_0_0_1_wf
def scatter_S8000_S200000x1_S200000_n_0_0_1 : ScatterDims S8000 S200000x1 S200000 where
  updateWindowDims := []
  insertedWindowDims := [0]
  scatterDimsToOperandDims := [0]
  indexVectorDim := 1
  wf := scatter_S8000_S200000x1_S200000_n_0_0_1_wf

class Facts : Prop extends Facts₀ where

variable [Facts]
-- ==== Proof.Layers.lean ====
/-
  The graph network, layer by layer, as functions of arrays.

  The 600000 edges are the 400000 given ones followed by one self-loop per node. deg counts, per
  node, the edges that end at it; dinv is deg^(-1/2) where deg > 0 and 0 elsewhere; an edge's weight
  is dinv[src] · dinv[dst]. A convolution layer gathers the rows h[src] of a node-feature matrix,
  scales each by its edge's weight, adds them up per destination node and adds the bias row; relu
  follows the first layer. The pool adds the node rows up per graph and divides by the number of
  nodes of the graph (at least 1). The network is
      pool (conv (relu (conv (x · W1) b1) · W2) b2).
  Both programs compute these same layers around their two matrix products; an index into the node
  axis below zero is moved up by the node count before it is used (it never is: the wrap is what
  indexing by an integer array writes).
-/
import proofs.«170769_j46093589021375_1_alg».proof.Proof.Gen.ReferenceIdeal
import Idealize.ShloMosaic.PureOps.Ideal

noncomputable section

namespace Cert.ReferenceIdeal.Layers

open Cert.ReferenceIdeal Cert.ReferenceIdeal.Gen Idealize.ShloMosaic Idealize.ShloMosaic.TcCoe Idealize.SL.Sem

variable {F : FTy → Type} [FloatOps F]

/-- Row r of the edge list, then the nodes 0 … 199999 (the self-loops). -/
def srcOf (e : (⟨S2x400000, .i32⟩ : BufTy).Contents (Elt F)) : (⟨S600000, .i32⟩ : BufTy).Contents (Elt F) :=
  concatenate S600000 0 [⟨S400000, (shapeCast _ (extractStridedSlice S1x400000 ![0, 0] e slices_S2x400000_S1x400000_0_0) shapeCasts_S1x400000_S400000)⟩, ⟨S200000, (iotaInDim S200000 32 0)⟩] concatenates_S400000_S200000_S600000_d0

def dstOf (e : (⟨S2x400000, .i32⟩ : BufTy).Contents (Elt F)) : (⟨S600000, .i32⟩ : BufTy).Contents (Elt F) :=
  concatenate S600000 0 [⟨S400000, (shapeCast _ (extractStridedSlice S1x400000 ![1, 0] e slices_S2x400000_S1x400000_1_0) shapeCasts_S1x400000_S400000)⟩, ⟨S200000, (iotaInDim S200000 32 0)⟩] concatenates_S400000_S200000_S600000_d0

/-- Node indices as a gather takes them: one column, an index below zero moved up by the node count. -/
def wrap (v : (⟨S600000, .i32⟩ : BufTy).Contents (Elt F)) : (⟨S600000x1, .i32⟩ : BufTy).Contents (Elt F) :=
  broadcastInDim S600000x1 ![0] bcast_S600000_S600000x1_0 (select (cmpi .slt v (broadcastInDim S600000 ![] bcast_S_S600000 (constantI S_ 32 0#32))) (addi v (broadcastInDim S600000 ![] bcast_S_S600000 (constantI S_ 32 200000#32))) v)

/-- The number of edges ending at each node. -/
def degOf (dst : (⟨S600000, .i32⟩ : BufTy).Contents (Elt F)) : (⟨S200000, .f32⟩ : BufTy).Contents (Elt F) :=
  Host.scatterAdd scatter_S200000_S600000x1_S600000_n_0_0_1 (broadcastInDim S200000 ![] bcast_S_S200000 (constant S_ .f32 0x00000000#32)) (broadcastInDim S600000x1 ![0] bcast_S600000_S600000x1_0 dst) (broadcastInDim S600000 ![] bcast_S_S600000 (constant S_ .f32 0x3F800000#32))

/-- deg^(-1/2) where the degree is positive, zero elsewhere. -/
def dinvOf (deg : (⟨S200000, .f32⟩ : BufTy).Contents (Elt F)) : (⟨S200000, .f32⟩ : BufTy).Contents (Elt F) :=
  select (cmpf (F := F) .ogt deg (broadcastInDim S200000 ![] bcast_S_S200000 (constant S_ .f32 0x00000000#32))) (Host.rsqrt deg) (broadcastInDim S200000 ![] bcast_S_S200000 (id (constant S_ .f32 0x00000000#32)))

/-- Each edge's weight dinv[src] · dinv[dst]. -/
def normOf (src dst : (⟨S600000, .i32⟩ : BufTy).Contents (Elt F)) : (⟨S600000, .f32⟩ : BufTy).Contents (Elt F) :=
  mulf (Host.gather gather_S200000_S600000x1_S600000_n_0_n_n_0_1_1 (dinvOf (degOf dst)) (wrap src)) (Host.gather gather_S200000_S600000x1_S600000_n_0_n_n_0_1_1 (dinvOf (degOf dst)) (wrap dst))

/-- One convolution layer after its matrix product: gather the source rows, scale by the edge weights,
    add up per destination node, add the bias row. -/
def convOf (h : (⟨S200000x256, .f32⟩ : BufTy).Contents (Elt F)) (src dst : (⟨S600000, .i32⟩ : BufTy).Contents (Elt F))
    (norm : (⟨S600000, .f32⟩ : BufTy).Contents (Elt F)) (b : (⟨S256, .f32⟩ : BufTy).Contents (Elt F)) : (⟨S200000x256, .f32⟩ : BufTy).Contents (Elt F) :=
  addf (Host.scatterAdd scatter_S200000x256_S600000x1_S600000x256_1_0_0_1 (broadcastInDim S200000x256 ![] bcast_S_S200000x256 (constant S_ .f32 0x00000000#32)) (broadcastInDim S600000x1 ![0] bcast_S600000_S600000x1_0 dst) (mulf (Host.gather gather_S200000x256_S600000x1_S600000x256_1_0_n_n_0_1_1256 h (wrap src)) (broadcastInDim S600000x256 ![0, 1] bcast_S600000x1_S600000x256_0_1 (broadcastInDim S600000x1 ![0] bcast_S600000_S600000x1_0 norm)))) (broadcastInDim S200000x256 ![0, 1] bcast_S1x256_S200000x256_0_1 (broadcastInDim S1x256 ![1] bcast_S256_S1x256_1 b))

def reluOf (h : (⟨S200000x256, .f32⟩ : BufTy).Contents (Elt F)) : (⟨S200000x256, .f32⟩ : BufTy).Contents (Elt F) :=
  maximumf h (broadcastInDim S200000x256 ![] bcast_S_S200000x256 (constant S_ .f32 0x00000000#32))

/-- The mean of the node rows of each graph (a graph without nodes divides by 1). -/
def poolOf (h : (⟨S200000x256, .f32⟩ : BufTy).Contents (Elt F)) (batch : (⟨S200000, .i32⟩ : BufTy).Contents (Elt F)) : (⟨S8000x256, .f32⟩ : BufTy).Contents (Elt F) :=
  Host.divf (Host.scatterAdd scatter_S8000x256_S200000x1_S200000x256_1_0_0_1 (broadcastInDim S8000x256 ![] bcast_S_S8000x256 (constant S_ .f32 0x00000000#32)) (broadcastInDim S200000x1 ![0] bcast_S200000_S200000x1_0 batch) h) (broadcastInDim S8000x256 ![0, 1] bcast_S8000x1_S8000x256_0_1 (broadcastInDim S8000x1 ![0] bcast_S8000_S8000x1_0 (maximumf (Host.scatterAdd scatter_S8000_S200000x1_S200000_n_0_0_1 (broadcastInDim S8000 ![] bcast_S_S8000 (constant S_ .f32 0x00000000#32)) (broadcastInDim S200000x1 ![0] bcast_S200000_S200000x1_0 batch) (broadcastInDim S200000 ![] bcast_S_S200000 (constant S_ .f32 0x3F800000#32))) (broadcastInDim S8000 ![] bcast_S_S8000 (constant S_ .f32 0x3F800000#32)))))

/-- The first layer's matrix product x · W1 and the second's h · W2. -/
def dot1 (x : (⟨S200000x768, .f32⟩ : BufTy).Contents (Elt F)) (w : (⟨S768x256, .f32⟩ : BufTy).Contents (Elt F)) : (⟨S200000x256, .f32⟩ : BufTy).Contents (Elt F) :=
  Host.dotGeneral dot_S200000x768_S768x256_S200000x256_1_0_0_1_n_n none x w

def dot2 (h : (⟨S200000x256, .f32⟩ : BufTy).Contents (Elt F)) (w : (⟨S256x256, .f32⟩ : BufTy).Contents (Elt F)) : (⟨S200000x256, .f32⟩ : BufTy).Contents (Elt F) :=
  Host.dotGeneral dot_S200000x256_S256x256_S200000x256_1_0_0_1_n_n none h w

/-- The whole network. -/
def gnn (x : (⟨S200000x768, .f32⟩ : BufTy).Contents (Elt F)) (w1 : (⟨S768x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F))
    (e : (⟨S2x400000, .i32⟩ : BufTy).Contents (Elt F)) (batch : (⟨S200000, .i32⟩ : BufTy).Contents (Elt F)) : (⟨S8000x256, .f32⟩ : BufTy).Contents (Elt F) :=
  poolOf (convOf (dot2 (reluOf (convOf (dot1 x w1) (srcOf e) (dstOf e) (normOf (srcOf e) (dstOf e)) b1)) w2) (srcOf e) (dstOf e) (normOf (srcOf e) (dstOf e)) b2) batch

end Cert.ReferenceIdeal.Layers

end
-- ==== Proof.RefValue.lean ====
/-
  The reference's result is the network of layers.

  The reference's run ends with its result buffer at the composed term of its 99 host operations;
  that term is, operation for operation, the layers of the network around the two whole matrix
  products x · W1 and h · W2.
-/
import proofs.«170769_j46093589021375_1_alg».proof.Proof.RefRun
import proofs.«170769_j46093589021375_1_alg».proof.Proof.Layers

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The composed term of the reference's operations is the network applied to the argument arrays. -/
theorem result_eq (m : (ℓ : Loc nD τ sig) → Buf (Elt F) ℓ) (c : Dev nD) :
    Value.res_main_v76 m c
      = Layers.gnn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Value.res_main_v76 Layers.gnn Layers.poolOf Layers.convOf Layers.dot1 Layers.dot2 Layers.reluOf Layers.normOf
    Layers.dinvOf Layers.degOf Layers.wrap Layers.srcOf Layers.dstOf
  rfl

end Cert.ReferenceIdeal.RefValue

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.MatmulTiles.lean ====
/-
  The two row-tiled matrix products of the kernel, each as ONE whole-array product.

  Each pallas_call runs over 50 grid points; point t loads rows 4000·t … 4000·t + 3999 of the left
  operand and the whole right operand, multiplies them into a zero accumulator and stores the
  4000 × 256 result as rows 4000·t … 4000·t + 3999 of the output. On the extended reals the
  rounding of the operands to bf16 is the identity, and entry (p, q) of a block's product is
  ∑ k, a[4000·t + p, k] · b[k, q] — the same sum the whole product M×K by K×N has at
  (4000·t + p, q). The 50 blocks tile the output's rows, so after the run the output array is the
  whole product of the two operand arrays as the region found them.
-/
import proofs.«170769_j46093589021375_1_alg».proof.Proof.Gen.KernelIdeal.Frame
import proofs.«170769_j46093589021375_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## A block's product at an entry -/

/-- Entry (p, q) of the first call's block product: the rounding to bf16 is the identity and the
    accumulator is zero, so it is the plain sum over the shared coordinate. -/
theorem pay0_apply (x0 : Vec Ideal S4000x768 .f32) (x1 : Vec Ideal S768x256 .f32) (p : Fin 4000) (q : Fin 256) :
    k0_pay1 (F := Ideal) x0 x1 (ix2 p q) = ∑ k : Fin 768, x0 (ix2 p k) * x1 (ix2 k q) := by
  unfold k0_pay1
  exact PlainDot.matmul_zero_apply 4000 768 256 none _ _ p q

/-- Entry (p, q) of the second call's block product. -/
theorem pay1_apply (x0 : Vec Ideal S4000x256 .f32) (x1 : Vec Ideal S256x256 .f32) (p : Fin 4000) (q : Fin 256) :
    k1_pay1 (F := Ideal) x0 x1 (ix2 p q) = ∑ k : Fin 256, x0 (ix2 p k) * x1 (ix2 k q) := by
  unfold k1_pay1
  rw [shapeCast_self]
  exact PlainDot.matmul_zero_apply 4000 256 256 none _ _ p q

/-! ## The first call: rows of x times W1 -/

/-- The whole product of the first call's operand arrays as the region finds them. -/
abbrev whole0 (c : Dev nD) : Buf (Elt Ideal) ((c : Thread nD τ).loc main_v30) :=
  Host.dotGeneral (F := Ideal) (φ₁ := .f32) (φ₂ := .f32) (DotDims.plain 200000 768 256) none (V c main_arg0) (V c main_arg1)

/-- The index maps over the grid: the left operand's and the output's block move down the rows with the
    point, the right operand's block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t holds rows 4000·t … of the array. -/
theorem lhs0_apply (c : Dev nD) (t : Fin cfg0.N) (p : Fin 4000) (k : Fin 768) (P : Fin 200000)
    (hP : P.val = t.val * 4000 + p.val) :
    (iblk0 V c 0 t : Vec Ideal S4000x768 .f32) (ix2 p k) = (V c main_arg0 : S200000x768.Idx → EReal) (ix2 P k) := by
  obtain ⟨e0, e1, -, -, -, -⟩ := idx0 t
  unfold iblk0
  rw [View.read_apply]
  show V c main_arg0 _ = V c main_arg0 _
  refine congrArg _ ?_
  funext a
  apply Fin.ext
  match a with
  | ⟨0, _⟩ => show win0_0.index t (0 : Fin 2) * 4000 + 1 * p.val = P.val; rw [e0, hP]; omega
  | ⟨1, _⟩ => show win0_0.index t (1 : Fin 2) * 768 + 1 * k.val = k.val; rw [e1]; omega

/-- The right operand's block at every point is the whole array. -/
theorem rhs0_apply (c : Dev nD) (t : Fin cfg0.N) (k : Fin 768) (q : Fin 256) :
    (iblk0 V c 1 t : Vec Ideal S768x256 .f32) (ix2 k q) = (V c main_arg1 : S768x256.Idx → EReal) (ix2 k q) := by
  obtain ⟨-, -, e0, e1, -, -⟩ := idx0 t
  unfold iblk0
  rw [View.read_apply]
  show V c main_arg1 _ = V c main_arg1 _
  refine congrArg _ ?_
  funext a
  apply Fin.ext
  match a with
  | ⟨0, _⟩ => show win0_1.index t (0 : Fin 2) * 768 + 1 * k.val = k.val; rw [e0]; omega
  | ⟨1, _⟩ => show win0_1.index t (1 : Fin 2) * 256 + 1 * q.val = q.val; rw [e1]; omega

/-- What point t writes back is block t of the whole product. -/
theorem flushed0 (c : Dev nD) (t : Fin cfg0.N) :
    (dat0 V c).flushed 2 t = ((cfg0.win 2).blk t).view.read (Elt Ideal) (whole0 V c) := by
  show (cfg0.win 2).cut (grid0.coords t) ((dat0 V c).after 2 t) = _
  rw [after0_2]
  unfold out0_2
  rw [View.canon_unit_zero hz]
  simp only [View.ld_unit_zero (S := S4000x768) hz, View.ld_unit_zero (S := S768x256) hz]
  funext j
  obtain ⟨p, q, rfl⟩ : ∃ (p : Fin 4000) (q : Fin 256), j = ix2 p q := ⟨j 0, j 1, eq_ix2 j⟩
  have ht : t.val < 50 := by have h := t.isLt; have hN : cfg0.N = 50 := N_0; omega
  obtain ⟨-, -, -, -, e0, e1⟩ := idx0 t
  have hemb : ((cfg0.win 2).blk t).view.emb (ix2 p q) = (ix2 (⟨t.val * 4000 + p.val, by omega⟩ : Fin 200000) q : S200000x256.Idx) := by
    funext a
    apply Fin.ext
    match a with
    | ⟨0, _⟩ => show win0_2.index t (0 : Fin 2) * 4000 + 1 * p.val = t.val * 4000 + p.val; rw [e0]; omega
    | ⟨1, _⟩ => show win0_2.index t (1 : Fin 2) * 256 + 1 * q.val = q.val; rw [e1]; omega
  show k0_pay1 (iblk0 V c 0 t) (iblk0 V c 1 t) (ix2 p q) = whole0 V c (((cfg0.win 2).blk t).view.emb (ix2 p q))
  rw [hemb]
  refine (pay0_apply _ _ p q).trans ?_
  refine Eq.trans ?_ (PlainDot.dotGeneral_apply 200000 768 256 (φ₁ := .f32) (φ₂ := .f32) none .single (V c main_arg0) (V c main_arg1) (⟨t.val * 4000 + p.val, by omega⟩ : Fin 200000) q).symm
  refine Finset.sum_congr rfl fun k _ => ?_
  rw [lhs0_apply V c t p k ⟨t.val * 4000 + p.val, by omega⟩ rfl, rhs0_apply V c t k q]

/-- An index of the output is in point t's block iff its row is among the block's 4000 rows. -/
theorem mem_blk0 (t : Fin cfg0.N) (i : S200000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v30).slice (win0_2.rect t)).set ↔ _
  rw [View.set_slice_whole, Rect.mem_set_unit]
  exact Iff.rfl

/-- The 50 blocks tile the output: row r is in the block of point r / 4000. -/
theorem cover0 (i : S200000x256.Idx) :
    ∃ t : Fin cfg0.N, (cfg0.win 2).flush t = true ∧ i ∈ ((cfg0.win 2).blk t).view.set := by
  have h0 : (i 0).val < 200000 := (i 0).isLt
  have h1 : (i 1).val < 256 := (i 1).isLt
  have hN : cfg0.N = 50 := N_0
  obtain ⟨t, ht⟩ : ∃ t : Fin cfg0.N, t.val = (i 0).val / 4000 := ⟨⟨(i 0).val / 4000, by rw [hN]; omega⟩, rfl⟩
  obtain ⟨-, -, -, -, e0, e1⟩ := idx0 t
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; rw [e0, ht]; omega
  | ⟨1, _⟩ => show win0_2.index t (1 : Fin 2) * 256 ≤ (i 1).val ∧ (i 1).val < win0_2.index t (1 : Fin 2) * 256 + 256; rw [e1]; omega

/-- After the first call its output array is the whole product of its operand arrays. -/
theorem arr0 (c : Dev nD) : (dat0 V c).arrAt 2 cfg0.N = whole0 V c :=
  (dat0 V c).arrAt_eq_of_cover 2 (whole0 V c) (fun t _ => flushed0 V c t) cover0

/-! ## The second call: rows of the hidden features times W2 -/

/-- The whole product of the second call's operand arrays as the region finds them. -/
abbrev whole1 (c : Dev nD) : Buf (Elt Ideal) ((c : Thread nD τ).loc main_v48) :=
  Host.dotGeneral (F := Ideal) (φ₁ := .f32) (φ₂ := .f32) (DotDims.plain 200000 256 256) none (V c main_v47) (V c main_arg3)

/-- The index maps over the grid: the left operand's and the output's block move down the rows with the
    point, the right operand's block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t holds rows 4000·t … of the array. -/
theorem lhs1_apply (c : Dev nD) (t : Fin cfg1.N) (p : Fin 4000) (k : Fin 256) (P : Fin 200000)
    (hP : P.val = t.val * 4000 + p.val) :
    (iblk1 V c 0 t : Vec Ideal S4000x256 .f32) (ix2 p k) = (V c main_v47 : S200000x256.Idx → EReal) (ix2 P k) := by
  obtain ⟨e0, e1, -, -, -, -⟩ := idx1 t
  unfold iblk1
  rw [View.read_apply]
  show V c main_v47 _ = V c main_v47 _
  refine congrArg _ ?_
  funext a
  apply Fin.ext
  match a with
  | ⟨0, _⟩ => show win1_0.index t (0 : Fin 2) * 4000 + 1 * p.val = P.val; rw [e0, hP]; omega
  | ⟨1, _⟩ => show win1_0.index t (1 : Fin 2) * 256 + 1 * k.val = k.val; rw [e1]; omega

/-- The right operand's block at every point is the whole array. -/
theorem rhs1_apply (c : Dev nD) (t : Fin cfg1.N) (k : Fin 256) (q : Fin 256) :
    (iblk1 V c 1 t : Vec Ideal S256x256 .f32) (ix2 k q) = (V c main_arg3 : S256x256.Idx → EReal) (ix2 k q) := by
  obtain ⟨-, -, e0, e1, -, -⟩ := idx1 t
  unfold iblk1
  rw [View.read_apply]
  show V c main_arg3 _ = V c main_arg3 _
  refine congrArg _ ?_
  funext a
  apply Fin.ext
  match a with
  | ⟨0, _⟩ => show win1_1.index t (0 : Fin 2) * 256 + 1 * k.val = k.val; rw [e0]; omega
  | ⟨1, _⟩ => show win1_1.index t (1 : Fin 2) * 256 + 1 * q.val = q.val; rw [e1]; omega

/-- What point t writes back is block t of the whole product. -/
theorem flushed1 (c : Dev nD) (t : Fin cfg1.N) :
    (dat1 V c).flushed 2 t = ((cfg1.win 2).blk t).view.read (Elt Ideal) (whole1 V c) := by
  show (cfg1.win 2).cut (grid1.coords t) ((dat1 V c).after 2 t) = _
  rw [after1_2]
  unfold out1_2
  rw [View.canon_unit_zero hz]
  simp only [View.ld_unit_zero (S := S4000x256) hz, View.ld_unit_zero (S := S256x256) hz]
  funext j
  obtain ⟨p, q, rfl⟩ : ∃ (p : Fin 4000) (q : Fin 256), j = ix2 p q := ⟨j 0, j 1, eq_ix2 j⟩
  have ht : t.val < 50 := by have h := t.isLt; have hN : cfg1.N = 50 := N_1; omega
  obtain ⟨-, -, -, -, e0, e1⟩ := idx1 t
  have hemb : ((cfg1.win 2).blk t).view.emb (ix2 p q) = (ix2 (⟨t.val * 4000 + p.val, by omega⟩ : Fin 200000) q : S200000x256.Idx) := by
    funext a
    apply Fin.ext
    match a with
    | ⟨0, _⟩ => show win1_2.index t (0 : Fin 2) * 4000 + 1 * p.val = t.val * 4000 + p.val; rw [e0]; omega
    | ⟨1, _⟩ => show win1_2.index t (1 : Fin 2) * 256 + 1 * q.val = q.val; rw [e1]; omega
  show k1_pay1 (iblk1 V c 0 t) (iblk1 V c 1 t) (ix2 p q) = whole1 V c (((cfg1.win 2).blk t).view.emb (ix2 p q))
  rw [hemb]
  refine (pay1_apply _ _ p q).trans ?_
  refine Eq.trans ?_ (PlainDot.dotGeneral_apply 200000 256 256 (φ₁ := .f32) (φ₂ := .f32) none .single (V c main_v47) (V c main_arg3) (⟨t.val * 4000 + p.val, by omega⟩ : Fin 200000) q).symm
  refine Finset.sum_congr rfl fun k _ => ?_
  rw [lhs1_apply V c t p k ⟨t.val * 4000 + p.val, by omega⟩ rfl, rhs1_apply V c t k q]

/-- An index of the output is in point t's block iff its row is among the block's 4000 rows. -/
theorem mem_blk1 (t : Fin cfg1.N) (i : S200000x256.Idx) :
    i ∈ ((cfg1.win 2).blk t).view.set ↔ ∀ a : Fin 2, win1_2.index t a * S4000x256.size a ≤ (i a).val ∧ (i a).val < win1_2.index t a * S4000x256.size a + S4000x256.size a := by
  show i ∈ ((View.whole main_v48).slice (win1_2.rect t)).set ↔ _
  rw [View.set_slice_whole, Rect.mem_set_unit]
  exact Iff.rfl

/-- The 50 blocks tile the output: row r is in the block of point r / 4000. -/
theorem cover1 (i : S200000x256.Idx) :
    ∃ t : Fin cfg1.N, (cfg1.win 2).flush t = true ∧ i ∈ ((cfg1.win 2).blk t).view.set := by
  have h0 : (i 0).val < 200000 := (i 0).isLt
  have h1 : (i 1).val < 256 := (i 1).isLt
  have hN : cfg1.N = 50 := N_1
  obtain ⟨t, ht⟩ : ∃ t : Fin cfg1.N, t.val = (i 0).val / 4000 := ⟨⟨(i 0).val / 4000, by rw [hN]; omega⟩, rfl⟩
  obtain ⟨-, -, -, -, e0, e1⟩ := idx1 t
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; rw [e0, ht]; omega
  | ⟨1, _⟩ => show win1_2.index t (1 : Fin 2) * 256 ≤ (i 1).val ∧ (i 1).val < win1_2.index t (1 : Fin 2) * 256 + 256; rw [e1]; omega

/-- After the second call its output array is the whole product of its operand arrays. -/
theorem arr1 (c : Dev nD) : (dat1 V c).arrAt 2 cfg1.N = whole1 V c :=
  (dat1 V c).arrAt_eq_of_cover 2 (whole1 V c) (fun t _ => flushed1 V c t) cover1

end Cert.KernelIdeal.Tiles

end
-- ==== Proof.LibAfterSplit.lean ====
/-
  A line of host operations run in two parts.

  The buffer contents after a list of operations are the contents after its last operations run from
  the contents after its first n: the fold over the list is the fold over the rest started from the
  fold over the first part. It lets a long line be read in stages, each from ANY contents.
-/
import Idealize.ShloMosaic.Lib.StableHlo.Run

noncomputable section

namespace Idealize.ShloMosaic.StableHlo

variable {τ : Topo} {sig : RefSig} {Val : EltTy → Type}

/-- The contents after the whole line are the contents after the operations from the n-th on, run from the
    contents after the first n. -/
theorem after_drop_after_take :
    ∀ (n : Nat) (l : List (HloOp τ sig Val)) (V : Valuation τ sig Val), after (l.drop n) (after (l.take n) V) = after l V
  | 0, _, _ => rfl
  | _ + 1, [], _ => rfl
  | n + 1, op :: l, V => after_drop_after_take n l (op.result V)

end Idealize.ShloMosaic.StableHlo

end
-- ==== Proof.KernelEdges.lean ====
/-
  Before the first product: the edge list and the edge weights, from any buffer contents.

  The first seven host operations build the two index columns of the 600000 edges (a row of the edge
  list, then the self-loops); the rest of the first stretch, the outlined select and the third stretch
  compute the degrees, their inverse square roots and, per edge, the product of the two end nodes'
  values. Read from ANY contents W, the three buffers the later segments use hold these functions of
  what W held in the edge-list argument, and the argument buffers are left as W had them.
-/
import proofs.«170769_j46093589021375_1_alg».proof.Proof.Gen.KernelIdeal.Frame
import proofs.«170769_j46093589021375_1_alg».proof.Proof.Layers
import proofs.«170769_j46093589021375_1_alg».proof.Proof.LibAfterSplit
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.ReferenceIdeal.Layers

variable (W : Valuation τ sig (Elt Ideal))

/-- The operations that build the edge columns, and the rest of the first stretch. -/
abbrev edgeOps : List (HloOp τ sig (Elt Ideal)) := List.take 7 hostOps0
abbrev degOps : List (HloOp τ sig (Elt Ideal)) := List.drop 7 hostOps0

/-- The three stretches of host operations before the first call, from contents W. -/
abbrev pre : Valuation τ sig (Elt Ideal) := after hostOps0_2 (after hostOps0_1 (after hostOps0 W))

theorem edges_src : after edgeOps W (Proc.devRef .tc main_v3) = srcOf (F := Ideal) (W (Proc.devRef .tc main_arg5)) := by
  simp only [edgeOps, hostOps0, List.take_succ_cons, List.take_zero]
  after_results
  rfl

theorem edges_dst : after edgeOps W (Proc.devRef .tc main_v6) = dstOf (F := Ideal) (W (Proc.devRef .tc main_arg5)) := by
  simp only [edgeOps, hostOps0, List.take_succ_cons, List.take_zero]
  after_results
  rfl

/-- From contents that hold the edge columns: the edge weights of those columns. -/
theorem weights_of : after hostOps0_2 (after hostOps0_1 (after degOps W)) (Proc.devRef .tc main_v29)
    = normOf (F := Ideal) (W (Proc.devRef .tc main_v3)) (W (Proc.devRef .tc main_v6)) := by
  simp only [degOps, hostOps0, List.drop_succ_cons, List.drop_zero]
  dsimp only [hostOps0_1, hostOps0_2]
  after_results_simp
  simp only [TRef.toBuf, TRef.ofBuf, cast_eq]
  unfold normOf dinvOf degOf wrap
  rfl

theorem pre_src : pre W (Proc.devRef .tc main_v3) = srcOf (F := Ideal) (W (Proc.devRef .tc main_arg5)) := by
  dsimp only [pre, hostOps0, hostOps0_1, hostOps0_2]
  after_results
  rfl

theorem pre_dst : pre W (Proc.devRef .tc main_v6) = dstOf (F := Ideal) (W (Proc.devRef .tc main_arg5)) := by
  dsimp only [pre, hostOps0, hostOps0_1, hostOps0_2]
  after_results
  rfl

theorem pre_norm : pre W (Proc.devRef .tc main_v29)
    = normOf (F := Ideal) (srcOf (F := Ideal) (W (Proc.devRef .tc main_arg5))) (dstOf (F := Ideal) (W (Proc.devRef .tc main_arg5))) := by
  have h : pre W = after hostOps0_2 (after hostOps0_1 (after degOps (after edgeOps W))) := by
    rw [after_drop_after_take 7 hostOps0 W]
  rw [h, weights_of (after edgeOps W), edges_src, edges_dst]

theorem pre_arg0 : pre W (Proc.devRef .tc main_arg0) = W (Proc.devRef .tc main_arg0) := by
  dsimp only [pre, hostOps0, hostOps0_1, hostOps0_2]
  after_results_simp

theorem pre_arg1 : pre W (Proc.devRef .tc main_arg1) = W (Proc.devRef .tc main_arg1) := by
  dsimp only [pre, hostOps0, hostOps0_1, hostOps0_2]
  after_results_simp

theorem pre_arg2 : pre W (Proc.devRef .tc main_arg2) = W (Proc.devRef .tc main_arg2) := by
  dsimp only [pre, hostOps0, hostOps0_1, hostOps0_2]
  after_results_simp

theorem pre_arg3 : pre W (Proc.devRef .tc main_arg3) = W (Proc.devRef .tc main_arg3) := by
  dsimp only [pre, hostOps0, hostOps0_1, hostOps0_2]
  after_results_simp

theorem pre_arg4 : pre W (Proc.devRef .tc main_arg4) = W (Proc.devRef .tc main_arg4) := by
  dsimp only [pre, hostOps0, hostOps0_1, hostOps0_2]
  after_results_simp

theorem pre_arg6 : pre W (Proc.devRef .tc main_arg6) = W (Proc.devRef .tc main_arg6) := by
  dsimp only [pre, hostOps0, hostOps0_1, hostOps0_2]
  after_results_simp

end Cert.KernelIdeal.Fold

end
-- ==== Proof.KernelLayers.lean ====
/-
  Between and after the two products: the convolution layers and the pool, from any buffer contents.

  The stretch between the calls gathers the rows of the first product by source node, scales them by
  the edge weights, adds them up per destination node, adds the bias and applies relu (an outlined
  function: a maximum with zero). The last stretch does the same to the second product, without the
  relu, then adds the node rows up per graph and divides by the graph's node count. Read from ANY
  contents W these are the layer functions of what W held in the buffers they read; the buffers later
  segments still need are left as W had them.
-/
import proofs.«170769_j46093589021375_1_alg».proof.Proof.Gen.KernelIdeal.Frame
import proofs.«170769_j46093589021375_1_alg».proof.Proof.Layers
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.ReferenceIdeal.Layers

variable (W : Valuation τ sig (Elt Ideal))

/-- The two stretches of host operations between the calls, from contents W. -/
abbrev mid : Valuation τ sig (Elt Ideal) := after hostOps1_1 (after hostOps1 W)

theorem mid_hidden : mid W (Proc.devRef .tc main_v47)
    = reluOf (F := Ideal) (convOf (F := Ideal) (W (Proc.devRef .tc main_v30)) (W (Proc.devRef .tc main_v3)) (W (Proc.devRef .tc main_v6)) (W (Proc.devRef .tc main_v29)) (W (Proc.devRef .tc main_arg2))) := by
  dsimp only [mid, hostOps1, hostOps1_1]
  after_results_simp
  simp only [TRef.toBuf, TRef.ofBuf, cast_eq]
  unfold reluOf convOf wrap
  rfl

theorem mid_v3 : mid W (Proc.devRef .tc main_v3) = W (Proc.devRef .tc main_v3) := by
  dsimp only [mid, hostOps1, hostOps1_1]
  after_results_simp

theorem mid_v6 : mid W (Proc.devRef .tc main_v6) = W (Proc.devRef .tc main_v6) := by
  dsimp only [mid, hostOps1, hostOps1_1]
  after_results_simp

theorem mid_v29 : mid W (Proc.devRef .tc main_v29) = W (Proc.devRef .tc main_v29) := by
  dsimp only [mid, hostOps1, hostOps1_1]
  after_results_simp

theorem mid_arg3 : mid W (Proc.devRef .tc main_arg3) = W (Proc.devRef .tc main_arg3) := by
  dsimp only [mid, hostOps1, hostOps1_1]
  after_results_simp

theorem mid_arg4 : mid W (Proc.devRef .tc main_arg4) = W (Proc.devRef .tc main_arg4) := by
  dsimp only [mid, hostOps1, hostOps1_1]
  after_results_simp

theorem mid_arg6 : mid W (Proc.devRef .tc main_arg6) = W (Proc.devRef .tc main_arg6) := by
  dsimp only [mid, hostOps1, hostOps1_1]
  after_results_simp

theorem tail_result : after hostOps2 W (Proc.devRef .tc main_v76)
    = poolOf (F := Ideal) (convOf (F := Ideal) (W (Proc.devRef .tc main_v48)) (W (Proc.devRef .tc main_v3)) (W (Proc.devRef .tc main_v6)) (W (Proc.devRef .tc main_v29)) (W (Proc.devRef .tc main_arg4))) (W (Proc.devRef .tc main_arg6)) := by
  dsimp only [hostOps2]
  after_results_simp
  unfold poolOf convOf wrap
  rfl

end Cert.KernelIdeal.Fold

end
-- ==== Proof.KernelFold.lean ====
/-
  The kernel's result buffer, read back through its segments.

  The kernel's @main is a stretch of host operations (edges, degrees, edge weights), the first tiled
  product x · W1, a stretch (the first convolution layer and its relu), the second tiled product
  h · W2, and a last stretch (the second convolution layer and the mean pool). Each stretch leaves in
  the buffers the later segments read a layer of the network applied to what it found, and the other
  buffers alone; each tiled product leaves the whole product in its output array and every other
  buffer alone. Chained from the launch memory, the result buffer ends at the network applied to the
  argument arrays.
-/
import proofs.«170769_j46093589021375_1_alg».proof.Proof.Gen.KernelIdeal.Frame
import proofs.«170769_j46093589021375_1_alg».proof.Proof.MatmulTiles
import proofs.«170769_j46093589021375_1_alg».proof.Proof.Layers
import proofs.«170769_j46093589021375_1_alg».proof.Proof.KernelEdges
import proofs.«170769_j46093589021375_1_alg».proof.Proof.KernelLayers

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.ReferenceIdeal.Layers

section Chain

variable (m : (ℓ : Loc nD τ sig) → Buf (Elt Ideal) ℓ) (ρ : Dev nD → PrngReg) (c : Dev nD)

/-- The kernel's result buffer at the last segment boundary is the network applied to the argument arrays:
    the stretches' layers and the two whole products, chained from the launch memory. -/
theorem result : W8 m ρ c (Proc.devRef .tc main_v76)
    = gnn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  -- at the first call's entry
  have s3 : W3 m ρ c (Proc.devRef .tc main_v3) = (srcOf (F := Ideal) (m ((c : Thread nD τ).loc main_arg5))) := pre_src (W0 m ρ c)
  have d3 : W3 m ρ c (Proc.devRef .tc main_v6) = (dstOf (F := Ideal) (m ((c : Thread nD τ).loc main_arg5))) := pre_dst (W0 m ρ c)
  have n3 : W3 m ρ c (Proc.devRef .tc main_v29) = (normOf (F := Ideal) (srcOf (F := Ideal) (m ((c : Thread nD τ).loc main_arg5))) (dstOf (F := Ideal) (m ((c : Thread nD τ).loc main_arg5)))) := pre_norm (W0 m ρ c)
  have a3_0 : W3 m ρ c (Proc.devRef .tc main_arg0) = (m ((c : Thread nD τ).loc main_arg0)) := pre_arg0 (W0 m ρ c)
  have a3_1 : W3 m ρ c (Proc.devRef .tc main_arg1) = (m ((c : Thread nD τ).loc main_arg1)) := pre_arg1 (W0 m ρ c)
  have a3_2 : W3 m ρ c (Proc.devRef .tc main_arg2) = (m ((c : Thread nD τ).loc main_arg2)) := pre_arg2 (W0 m ρ c)
  have a3_3 : W3 m ρ c (Proc.devRef .tc main_arg3) = (m ((c : Thread nD τ).loc main_arg3)) := pre_arg3 (W0 m ρ c)
  have a3_4 : W3 m ρ c (Proc.devRef .tc main_arg4) = (m ((c : Thread nD τ).loc main_arg4)) := pre_arg4 (W0 m ρ c)
  have a3_6 : W3 m ρ c (Proc.devRef .tc main_arg6) = (m ((c : Thread nD τ).loc main_arg6)) := pre_arg6 (W0 m ρ c)
  -- after the first call: its output is the whole product, the rest is as it was
  have p4 : W4 m ρ c (Proc.devRef .tc main_v30) = dot1 (F := Ideal) (m ((c : Thread nD τ).loc main_arg0)) (m ((c : Thread nD τ).loc main_arg1)) := by
    refine (W4_arr m ρ c 2).trans ((Tiles.arr0 (V3 m ρ) c).trans ?_)
    show Host.dotGeneral (F := Ideal) (φ₁ := .f32) (φ₂ := .f32) (DotDims.plain 200000 768 256) none (W3 m ρ c (Proc.devRef .tc main_arg0)) (W3 m ρ c (Proc.devRef .tc main_arg1)) = _
    rw [a3_0, a3_1]
    rfl
  have s4 : W4 m ρ c (Proc.devRef .tc main_v3) = (srcOf (F := Ideal) (m ((c : Thread nD τ).loc main_arg5))) := (W4_of_ne m ρ c main_v3 (by decide)).trans s3
  have d4 : W4 m ρ c (Proc.devRef .tc main_v6) = (dstOf (F := Ideal) (m ((c : Thread nD τ).loc main_arg5))) := (W4_of_ne m ρ c main_v6 (by decide)).trans d3
  have n4 : W4 m ρ c (Proc.devRef .tc main_v29) = (normOf (F := Ideal) (srcOf (F := Ideal) (m ((c : Thread nD τ).loc main_arg5))) (dstOf (F := Ideal) (m ((c : Thread nD τ).loc main_arg5)))) := (W4_of_ne m ρ c main_v29 (by decide)).trans n3
  have a4_2 : W4 m ρ c (Proc.devRef .tc main_arg2) = (m ((c : Thread nD τ).loc main_arg2)) := (W4_of_ne m ρ c main_arg2 (by decide)).trans a3_2
  have a4_3 : W4 m ρ c (Proc.devRef .tc main_arg3) = (m ((c : Thread nD τ).loc main_arg3)) := (W4_of_ne m ρ c main_arg3 (by decide)).trans a3_3
  have a4_4 : W4 m ρ c (Proc.devRef .tc main_arg4) = (m ((c : Thread nD τ).loc main_arg4)) := (W4_of_ne m ρ c main_arg4 (by decide)).trans a3_4
  have a4_6 : W4 m ρ c (Proc.devRef .tc main_arg6) = (m ((c : Thread nD τ).loc main_arg6)) := (W4_of_ne m ρ c main_arg6 (by decide)).trans a3_6
  -- at the second call's entry: the first layer
  have h6 : W6 m ρ c (Proc.devRef .tc main_v47) = (reluOf (F := Ideal) (convOf (F := Ideal) (dot1 (F := Ideal) (m ((c : Thread nD τ).loc main_arg0)) (m ((c : Thread nD τ).loc main_arg1))) (srcOf (F := Ideal) (m ((c : Thread nD τ).loc main_arg5))) (dstOf (F := Ideal) (m ((c : Thread nD τ).loc main_arg5))) (normOf (F := Ideal) (srcOf (F := Ideal) (m ((c : Thread nD τ).loc main_arg5))) (dstOf (F := Ideal) (m ((c : Thread nD τ).loc main_arg5)))) (m ((c : Thread nD τ).loc main_arg2)))) := by
    refine (mid_hidden (W4 m ρ c)).trans ?_
    rw [p4, s4, d4, n4, a4_2]
  have s6 : W6 m ρ c (Proc.devRef .tc main_v3) = (srcOf (F := Ideal) (m ((c : Thread nD τ).loc main_arg5))) := (mid_v3 (W4 m ρ c)).trans s4
  have d6 : W6 m ρ c (Proc.devRef .tc main_v6) = (dstOf (F := Ideal) (m ((c : Thread nD τ).loc main_arg5))) := (mid_v6 (W4 m ρ c)).trans d4
  have n6 : W6 m ρ c (Proc.devRef .tc main_v29) = (normOf (F := Ideal) (srcOf (F := Ideal) (m ((c : Thread nD τ).loc main_arg5))) (dstOf (F := Ideal) (m ((c : Thread nD τ).loc main_arg5)))) := (mid_v29 (W4 m ρ c)).trans n4
  have a6_3 : W6 m ρ c (Proc.devRef .tc main_arg3) = (m ((c : Thread nD τ).loc main_arg3)) := (mid_arg3 (W4 m ρ c)).trans a4_3
  have a6_4 : W6 m ρ c (Proc.devRef .tc main_arg4) = (m ((c : Thread nD τ).loc main_arg4)) := (mid_arg4 (W4 m ρ c)).trans a4_4
  have a6_6 : W6 m ρ c (Proc.devRef .tc main_arg6) = (m ((c : Thread nD τ).loc main_arg6)) := (mid_arg6 (W4 m ρ c)).trans a4_6
  -- after the second call
  have p7 : W7 m ρ c (Proc.devRef .tc main_v48) = dot2 (F := Ideal) (reluOf (F := Ideal) (convOf (F := Ideal) (dot1 (F := Ideal) (m ((c : Thread nD τ).loc main_arg0)) (m ((c : Thread nD τ).loc main_arg1))) (srcOf (F := Ideal) (m ((c : Thread nD τ).loc main_arg5))) (dstOf (F := Ideal) (m ((c : Thread nD τ).loc main_arg5))) (normOf (F := Ideal) (srcOf (F := Ideal) (m ((c : Thread nD τ).loc main_arg5))) (dstOf (F := Ideal) (m ((c : Thread nD τ).loc main_arg5)))) (m ((c : Thread nD τ).loc main_arg2)))) (m ((c : Thread nD τ).loc main_arg3)) := by
    refine (W7_arr m ρ c 2).trans ((Tiles.arr1 (V6 m ρ) c).trans ?_)
    show Host.dotGeneral (F := Ideal) (φ₁ := .f32) (φ₂ := .f32) (DotDims.plain 200000 256 256) none (W6 m ρ c (Proc.devRef .tc main_v47)) (W6 m ρ c (Proc.devRef .tc main_arg3)) = _
    rw [h6, a6_3]
    rfl
  have s7 : W7 m ρ c (Proc.devRef .tc main_v3) = (srcOf (F := Ideal) (m ((c : Thread nD τ).loc main_arg5))) := (W7_of_ne m ρ c main_v3 (by decide)).trans s6
  have d7 : W7 m ρ c (Proc.devRef .tc main_v6) = (dstOf (F := Ideal) (m ((c : Thread nD τ).loc main_arg5))) := (W7_of_ne m ρ c main_v6 (by decide)).trans d6
  have n7 : W7 m ρ c (Proc.devRef .tc main_v29) = (normOf (F := Ideal) (srcOf (F := Ideal) (m ((c : Thread nD τ).loc main_arg5))) (dstOf (F := Ideal) (m ((c : Thread nD τ).loc main_arg5)))) := (W7_of_ne m ρ c main_v29 (by decide)).trans n6
  have a7_4 : W7 m ρ c (Proc.devRef .tc main_arg4) = (m ((c : Thread nD τ).loc main_arg4)) := (W7_of_ne m ρ c main_arg4 (by decide)).trans a6_4
  have a7_6 : W7 m ρ c (Proc.devRef .tc main_arg6) = (m ((c : Thread nD τ).loc main_arg6)) := (W7_of_ne m ρ c main_arg6 (by decide)).trans a6_6
  -- the last stretch: the second layer and the pool
  refine (tail_result (W7 m ρ c)).trans ?_
  rw [p7, s7, d7, n7, a7_4, a7_6]
  rfl

end Chain

end Cert.KernelIdeal.Fold

end
-- ==== Proof.lean ====
/-
  A two-layer graph convolution network with a mean pool, its two matrix products done by a row-tiled
  TPU kernel, against the same network with whole matrix products.

  Both programs build the same 600000 edges (the given ones and a self-loop per node), the same edge
  weights dinv[src] · dinv[dst] from the node degrees, and apply the same layers
      pool (conv (relu (conv (x · W1) b1) · W2) b2):
  gather rows by source node, scale by the edge weight, add up per destination node, add the bias; add
  the node rows up per graph and divide by the node count. They differ only in the two products: the
  kernel computes each in 50 blocks of 4000 rows, operands rounded to bf16 on the way in and
  accumulated from zero; the reference computes each as one product.

  On the extended reals the rounding is the identity and a block's entry (p, q) is ∑ k, a[p, k] · b[k, q],
  which is the whole product's entry at the block's row offset; the blocks tile the rows. So each tiled
  product IS the whole product, array for array, and every other operation is the same operation applied
  to the same arrays: the two results are one function of the arguments, and no law of arithmetic —
  hence nothing about finiteness — is used. The idealization pass rewrote nothing, so its ledger is empty.
-/
import proofs.«170769_j46093589021375_1_alg».proof.Defs
import proofs.«170769_j46093589021375_1_alg».proof.Proof.Gen.Kernel
import proofs.«170769_j46093589021375_1_alg».proof.Proof.Gen.Kernel.Skeleton
import proofs.«170769_j46093589021375_1_alg».proof.Proof.Gen.Kernel.Launch
import proofs.«170769_j46093589021375_1_alg».proof.Proof.Gen.Kernel.Points
import proofs.«170769_j46093589021375_1_alg».proof.Proof.Gen.Kernel.Frame
import proofs.«170769_j46093589021375_1_alg».proof.Proof.Gen.KernelIdeal
import proofs.«170769_j46093589021375_1_alg».proof.Proof.Gen.KernelIdeal.Skeleton
import proofs.«170769_j46093589021375_1_alg».proof.Proof.Gen.KernelIdeal.Launch
import proofs.«170769_j46093589021375_1_alg».proof.Proof.Gen.KernelIdeal.Points
import proofs.«170769_j46093589021375_1_alg».proof.Proof.Gen.KernelIdeal.Frame
import proofs.«170769_j46093589021375_1_alg».proof.Proof.Gen.ReferenceIdeal
import proofs.«170769_j46093589021375_1_alg».proof.Proof.Gen.Pre_finite_inputs
import proofs.«170769_j46093589021375_1_alg».proof.Proof.RefRun
import proofs.«170769_j46093589021375_1_alg».proof.Proof.RefValue
import proofs.«170769_j46093589021375_1_alg».proof.Proof.KernelRun
import proofs.«170769_j46093589021375_1_alg».proof.Proof.KernelFold
import Idealize.ShloMosaic.Adequacy
import Idealize.ShloMosaic.Init

noncomputable section

namespace Cert.Proof

open Idealize.ShloMosaic Idealize.SL.Sem Cert.Kernel

/-- The kernel as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the network applied to the argument
    arrays: the kernel by its segments read back with each tiled product a whole product, the reference by
    its operations composed. -/
theorem algebraic : Cert.algebraic_KernelIdeal_ReferenceIdeal := by
  intro m ρ m' ρ' _ hagree
  refine ⟨fun c => Cert.ReferenceIdeal.Layers.gnn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.RefValue.result_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
